-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S32 .f32) (main_arg6 : FVec F S32x64 .f32) (main_arg7 : FVec F S64 .f32) (main_arg8 : FVec F S64x128 .f32) (main_arg9 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S32x64 .f32) (main_arg7 : FVec F S64 .f32) (main_arg8 : FVec F S64x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S1x128 : Shape := ⟨2, ![1, 128]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x32, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x32, .f32⟩
  | .hbm, ⟨80, _⟩ => ⟨S1700000x1, .f32⟩
  | .hbm, ⟨81, _⟩ => ⟨S1700000x32, .f32⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S100000x32, .f32⟩
  | .hbm, ⟨90, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x64, .f32⟩
  | .local _ .vmem, ⟨13, _⟩ => ⟨S64, .f32⟩
  | .local _ .vmem, ⟨14, _⟩ => ⟨S64x128, .f32⟩
  | .local _ .vmem, ⟨15, _⟩ => ⟨S128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S32x64, .f32⟩
  | 7 => ⟨S64, .f32⟩
  | 8 => ⟨S64x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x32, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x128, .f32⟩

abbrev hbmTy0_1 (i : Nat) : BufTy := match i % 128 with
  | 0 => ⟨S100000x32, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x128, .f32⟩
  | 9 => ⟨S1x128, .f32⟩
  | 10 => ⟨S100000x128, .f32⟩
  | 11 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  dot_S100000x64_S64x128_S100000x128_1_0_0_1_n_n_wf : DotDims.WF S100000x64 S64x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The idealized kernel's run with every array named.

  The program is three pipelined regions among stretches of host operations. Its run ends with every array that
  outlives the regions holding the last boundary's contents: the fold of the host stretches and of the three
  regions' write-backs from the launch memory. The statement below says so for every such array at once; the
  value of each result is then read off that fold.
-/
import proofs.«138416_j61108794687905_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every array that is not a region's
    staging buffer ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.RunValue

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«138416_j61108794687905_1_alg».proof.Proof.LibPlainMatmul
import proofs.«138416_j61108794687905_1_alg».proof.Proof.LibHostReads
import proofs.«138416_j61108794687905_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.Region0.lean ====
/-
  The first pipelined region: the node table x·W1, ten blocks of 10000 rows.

  Point t of the grid reads rows 10000·t … 10000·t + 9999 of x and the whole of W1, multiplies them on the matrix unit
  into a zero accumulator (both operands first narrowed to bf16, which changes nothing on the extended reals) and writes
  the product back as the same rows of the result. A product with a fixed right factor acts on each row by itself, so
  the block is those rows of the whole product x·W1; the ten blocks tile the result, which therefore ends as x·W1.
-/
import proofs.«138416_j61108794687905_1_alg».proof.Proof.Gen.KernelIdeal.Frame
import proofs.«138416_j61108794687905_1_alg».proof.Proof.LibBlockRows
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.BlockRows

theorem hz : (![0, 0] : Fin 2 → Nat) = fun _ => 0 := funext fun a => by fin_cases a <;> rfl

/-- The rows of x that point t reads and of the result that it writes: 10000·t + p. -/
def rows (t : Fin cfg0.N) : Fin 10000 → Fin 100000 := fun p =>
  ⟨10000 * t.val + p.val, by have ht : t.val < 10 := lt_of_lt_of_eq t.isLt N_0; have hp := p.isLt; omega⟩

/-- The printed index maps over the grid: the row-blocked windows sit at block t, the weight window at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of x is rows 10000·t … of x. -/
theorem read_x (t : Fin cfg0.N) (X : FVec Ideal S100000x128 .f32) :
    ((cfg0.win 0).blk t).view.read (Elt Ideal) X = rowsOf (rows t) X := by
  obtain ⟨e0, e1, -⟩ := index_facts t
  funext y
  show X (((cfg0.win 0).blk t).view.emb y) = X (ix2 (rows t (y 0)) (y 1))
  refine congrArg X (funext fun a => Fin.ext ?_)
  match a with
  | ⟨0, _⟩ => show win0_0.index t (0 : Fin 2) * 10000 + 1 * (y 0).val = 10000 * t.val + (y 0).val; omega
  | ⟨1, _⟩ => show win0_0.index t (1 : Fin 2) * 128 + 1 * (y 1).val = (y 1).val; omega

/-- Every point's block of W1 is the whole of W1. -/
theorem read_w (t : Fin cfg0.N) (W : FVec Ideal S128x64 .f32) :
    ((cfg0.win 1).blk t).view.read (Elt Ideal) W = W := by
  obtain ⟨-, -, e0, e1, -⟩ := index_facts t
  funext y
  show W (((cfg0.win 1).blk t).view.emb y) = W y
  refine congrArg W (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- Point t's block of the result is rows 10000·t … of it. -/
theorem read_out (t : Fin cfg0.N) (G : FVec Ideal S100000x64 .f32) :
    ((cfg0.win 2).blk t).view.read (Elt Ideal) G = rowsOf (rows t) G := by
  obtain ⟨-, -, -, -, e0, e1⟩ := index_facts t
  funext y
  show G (((cfg0.win 2).blk t).view.emb y) = G (ix2 (rows t (y 0)) (y 1))
  refine congrArg G (funext fun a => Fin.ext ?_)
  match a with
  | ⟨0, _⟩ => show win0_2.index t (0 : Fin 2) * 10000 + 1 * (y 0).val = 10000 * t.val + (y 0).val; omega
  | ⟨1, _⟩ => show win0_2.index t (1 : Fin 2) * 64 + 1 * (y 1).val = (y 1).val; omega

/-- The whole product x·W1. -/
def product (X : FVec Ideal S100000x128 .f32) (W : FVec Ideal S128x64 .f32) : FVec Ideal S100000x64 .f32 :=
  Host.dotGeneral (F := Ideal) (DotDims.plain 100000 128 64) none X W

/-- The body on picked rows of x gives the picked rows of x·W1. -/
theorem body_rows (ρ : Fin 10000 → Fin 100000) (X : FVec Ideal S100000x128 .f32) (W : FVec Ideal S128x64 .f32) :
    k0_pay1 (F := Ideal) (rowsOf ρ X) W = rowsOf ρ (product X W) :=
  matmul_rows ρ none none _ _ X W (fun _ _ => rfl) (fun _ _ => rfl)

/-- What point t writes back is its block of x·W1 of the arrays the region is entered with. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [read_out]
  refine Eq.trans ?_ (body_rows (rows t) (V c main_arg0) (V c main_arg2))
  exact congrArg₂ (k0_pay1 (F := Ideal)) (read_x t (V c main_arg0)) (read_w t (V c main_arg2))

/-- An index of the result is in point t's block iff its row is one of the block's. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the result. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, e0, e1⟩ := index_facts t
  have tv : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its result array holds x·W1 of the arrays it was entered with. -/
theorem final (V : (c : Dev nD) → (b : Ref sig .tc) → Buf (Elt Ideal) ((c : Thread nD τ).loc b)) (c : Dev nD) :
    (dat0 (F := Ideal) V c).arrAt 2 cfg0.N = product (V c main_arg0) (V c main_arg2) :=
  (dat0 V c).arrAt_eq_of_cover 2 (product (V c main_arg0) (V c main_arg2)) (fun t _ => flushed_eq V c t) cover

end Cert.KernelIdeal.Region0

end
-- ==== Proof.Region1.lean ====
/-
  The second pipelined region: the node table max(y, 0)·W2, ten blocks of 10000 rows.

  Point t of the grid reads rows 10000·t … 10000·t + 9999 of the first convolution's result y and the whole of W2, takes
  the maximum of the rows with zero, multiplies on the matrix unit into a zero accumulator (both operands first narrowed
  to bf16, which changes nothing on the extended reals) and writes the product back as the same rows of the result.
  The maximum acts entry by entry and the product row by row, so the block is those rows of max(y, 0)·W2 computed on the
  whole table; the ten blocks tile the result.
-/
import proofs.«138416_j61108794687905_1_alg».proof.Proof.Gen.KernelIdeal.Frame
import proofs.«138416_j61108794687905_1_alg».proof.Proof.LibBlockRows
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.BlockRows

theorem hz : (![0, 0] : Fin 2 → Nat) = fun _ => 0 := funext fun a => by fin_cases a <;> rfl

/-- The rows of y that point t reads and of the result that it writes: 10000·t + p. -/
def rows (t : Fin cfg1.N) : Fin 10000 → Fin 100000 := fun p =>
  ⟨10000 * t.val + p.val, by have ht : t.val < 10 := lt_of_lt_of_eq t.isLt N_1; have hp := p.isLt; omega⟩

/-- The printed index maps over the grid: the row-blocked windows sit at block t, the weight window at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's block of y is rows 10000·t … of y. -/
theorem read_x (t : Fin cfg1.N) (X : FVec Ideal S100000x64 .f32) :
    ((cfg1.win 0).blk t).view.read (Elt Ideal) X = rowsOf (rows t) X := by
  obtain ⟨e0, e1, -⟩ := index_facts t
  funext y
  show X (((cfg1.win 0).blk t).view.emb y) = X (ix2 (rows t (y 0)) (y 1))
  refine congrArg X (funext fun a => Fin.ext ?_)
  match a with
  | ⟨0, _⟩ => show win1_0.index t (0 : Fin 2) * 10000 + 1 * (y 0).val = 10000 * t.val + (y 0).val; omega
  | ⟨1, _⟩ => show win1_0.index t (1 : Fin 2) * 64 + 1 * (y 1).val = (y 1).val; omega

/-- Every point's block of W2 is the whole of W2. -/
theorem read_w (t : Fin cfg1.N) (W : FVec Ideal S64x32 .f32) :
    ((cfg1.win 1).blk t).view.read (Elt Ideal) W = W := by
  obtain ⟨-, -, e0, e1, -⟩ := index_facts t
  funext y
  show W (((cfg1.win 1).blk t).view.emb y) = W y
  refine congrArg W (funext fun a => Fin.ext ?_)
  match a with
  | ⟨0, _⟩ => show win1_1.index t (0 : Fin 2) * 64 + 1 * (y 0).val = (y 0).val; omega
  | ⟨1, _⟩ => show win1_1.index t (1 : Fin 2) * 32 + 1 * (y 1).val = (y 1).val; omega

/-- Point t's block of the result is rows 10000·t … of it. -/
theorem read_out (t : Fin cfg1.N) (G : FVec Ideal S100000x32 .f32) :
    ((cfg1.win 2).blk t).view.read (Elt Ideal) G = rowsOf (rows t) G := by
  obtain ⟨-, -, -, -, e0, e1⟩ := index_facts t
  funext y
  show G (((cfg1.win 2).blk t).view.emb y) = G (ix2 (rows t (y 0)) (y 1))
  refine congrArg G (funext fun a => Fin.ext ?_)
  match a with
  | ⟨0, _⟩ => show win1_2.index t (0 : Fin 2) * 10000 + 1 * (y 0).val = 10000 * t.val + (y 0).val; omega
  | ⟨1, _⟩ => show win1_2.index t (1 : Fin 2) * 32 + 1 * (y 1).val = (y 1).val; omega

theorem zero_bcast : (⟨0, ![]⟩ : Shape).BroadcastsInDim ⟨2, ![100000, 64]⟩ ![] := by decide

/-- The whole product max(y, 0)·W2. -/
def product (Y : FVec Ideal S100000x64 .f32) (W : FVec Ideal S64x32 .f32) : FVec Ideal S100000x32 .f32 :=
  Host.dotGeneral (F := Ideal) (DotDims.plain 100000 64 32) none (relu zero_bcast Y) W

/-- The maximum with zero of picked rows is the picked rows of the maximum with zero. -/
theorem relu_block (ρ : Fin 10000 → Fin 100000) (Y : FVec Ideal S100000x64 .f32) :
    maximumf (shapeCast S10000x64 (rowsOf ρ Y) shapeCasts_S10000x64_S10000x64)
        (broadcast S10000x64 (Scalar.ofBits (F := Ideal) .f32 0x00000000#32))
      = rowsOf ρ (relu zero_bcast Y) := by
  rw [shapeCast_self]
  exact relu_rows ρ zero_bcast Y

/-- The body on picked rows of y gives the picked rows of max(y, 0)·W2. -/
theorem body_rows (ρ : Fin 10000 → Fin 100000) (X : FVec Ideal S100000x64 .f32) (W : FVec Ideal S64x32 .f32) :
    k1_pay1 (F := Ideal) (rowsOf ρ X) W = rowsOf ρ (product X W) :=
  matmul_rows ρ none none _ _ (relu zero_bcast X) W (fun p k => congrFun (relu_block ρ X) (ix2 p k)) (fun _ _ => rfl)

/-- What point t writes back is its block of max(y, 0)·W2 of the arrays the region is entered with. -/
theorem flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (product (V c main_v46) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  rw [read_out]
  refine Eq.trans ?_ (body_rows (rows t) (V c main_v46) (V c main_arg4))
  exact congrArg₂ (k1_pay1 (F := Ideal)) (read_x t (V c main_v46)) (read_w t (V c main_arg4))

/-- An index of the result is in point t's block iff its row is one of the block's. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v47).slice (win1_2.rect t)).set ↔ _
  rw [View.set_slice_whole, Rect.mem_set_unit]
  exact Iff.rfl

/-- The ten blocks tile the result. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  let t : Fin cfg1.N := ⟨(i 0).val / 10000, by rw [show cfg1.N = 10 from N_1]; omega⟩
  obtain ⟨-, -, -, -, e0, e1⟩ := index_facts t
  have tv : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- After the region its result array holds max(y, 0)·W2 of the arrays it was entered with. -/
theorem final (V : (c : Dev nD) → (b : Ref sig .tc) → Buf (Elt Ideal) ((c : Thread nD τ).loc b)) (c : Dev nD) :
    (dat1 (F := Ideal) V c).arrAt 2 cfg1.N = product (V c main_v46) (V c main_arg4) :=
  (dat1 V c).arrAt_eq_of_cover 2 (product (V c main_v46) (V c main_arg4)) (fun t _ => flushed_eq V c t) cover

end Cert.KernelIdeal.Region1

end
-- ==== Proof.LibBiasRows.lean ====
/-
  A bias row on picked rows.

  A vector of N numbers is laid as one row and broadcast down the TM rows of a block; the host lays the same vector as
  one row and broadcasts it down all M rows of a matrix. Every row of either is the vector itself, so the block's
  bias is any TM picked rows of the host's.
-/
import Idealize.ShloMosaic.Lib.Pipeline.Value
import Idealize.ShloMosaic.Lib.ValueIdx
import Idealize.ShloMosaic.Lib.ValueLayout
import proofs.«138416_j61108794687905_1_alg».proof.Proof.LibBlockRows

noncomputable section

namespace Cert.BiasRows

open Idealize.ShloMosaic Idealize.ShloMosaic.ValueIdx Cert.BlockRows

variable {TM M N : Nat}

/-- The host's bias matrix of a vector: the vector laid as one row, the row broadcast down M rows. -/
def bias {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α) :
    (⟨2, ![M, N]⟩ : Shape).Idx → α :=
  broadcastInDim ⟨2, ![M, N]⟩ ![0, 1] h2 (broadcastInDim ⟨2, ![1, N]⟩ ![1] h1 v)

/-- Entry (r, c) of the bias matrix is entry c of the vector. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (c : Fin N) : bias h1 h2 v (ix2 r c) = v (ix1 c) := by
  unfold bias
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- The vector reshaped to one row and broadcast down a block of TM rows is any TM picked rows of the host's bias
    matrix. -/
theorem bias_rows {α : Type} (ρ : Fin TM → Fin M) (v : (⟨1, ![N]⟩ : Shape).Idx → α)
    (hs : (⟨1, ![N]⟩ : Shape).ShapeCasts ⟨2, ![1, N]⟩) (hb : (⟨2, ![1, N]⟩ : Shape).Broadcasts ⟨2, ![TM, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    broadcastTo ⟨2, ![TM, N]⟩ (shapeCast ⟨2, ![1, N]⟩ v hs) hb = rowsOf ρ (bias h1 h2 v) := by
  rw [reshape_row v hs h1]
  funext j
  obtain ⟨p, c, rfl⟩ : ∃ (p : Fin TM) (c : Fin N), j = ix2 p c := ⟨j 0, j 1, eq_ix2 j⟩
  rw [broadcastTo_1b_ab_apply, rowsOf_apply, bias_apply]
  refine broadcastInDim_apply _ h1 v (ix2 (0 : Fin 1) c) (ix1 c) fun a => ?_
  match a with
  | ⟨0, _⟩ =>
    show c.val = if N = 1 then 0 else c.val
    split
    · have := c.isLt; omega
    · rfl

end Cert.BiasRows

end
-- ==== Proof.Region2.lean ====
/-
  The third pipelined region: the decoder, ten blocks of 10000 rows.

  Point t of the grid reads rows 10000·t … 10000·t + 9999 of the latent table z and the whole of the two weight tables
  and the two bias vectors, and computes on those rows

      max (z·Wd1 + bd1, 0) · Wd2 + bd2

  with both products on the matrix unit into zero accumulators (operands first narrowed to bf16, which changes nothing
  on the extended reals) and each bias laid as one row and broadcast down the block. Every step acts on each row by
  itself, so the block is those rows of the decoder computed on the whole table; the ten blocks tile the result.
-/
import proofs.«138416_j61108794687905_1_alg».proof.Proof.Gen.KernelIdeal.Frame
import proofs.«138416_j61108794687905_1_alg».proof.Proof.LibBlockRows
import proofs.«138416_j61108794687905_1_alg».proof.Proof.LibBiasRows
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.BlockRows Cert.BiasRows

theorem hz : (![0, 0] : Fin 2 → Nat) = fun _ => 0 := funext fun a => by fin_cases a <;> rfl
theorem hz1 : (![0] : Fin 1 → Nat) = fun _ => 0 := funext fun a => by fin_cases a; rfl

/-- The rows of z that point t reads and of the result that it writes: 10000·t + p. -/
def rows (t : Fin cfg2.N) : Fin 10000 → Fin 100000 := fun p =>
  ⟨10000 * t.val + p.val, by have ht : t.val < 10 := lt_of_lt_of_eq t.isLt N_2; have hp := p.isLt; omega⟩

/-- The printed index maps over the grid: the row-blocked windows sit at block t, every other window at block 0. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Point t's block of z is rows 10000·t … of z. -/
theorem read_z (t : Fin cfg2.N) (X : FVec Ideal S100000x32 .f32) :
    ((cfg2.win 0).blk t).view.read (Elt Ideal) X = rowsOf (rows t) X := by
  obtain ⟨e0, e1, -⟩ := index_facts t
  funext y
  show X (((cfg2.win 0).blk t).view.emb y) = X (ix2 (rows t (y 0)) (y 1))
  refine congrArg X (funext fun a => Fin.ext ?_)
  match a with
  | ⟨0, _⟩ => show win2_0.index t (0 : Fin 2) * 10000 + 1 * (y 0).val = 10000 * t.val + (y 0).val; omega
  | ⟨1, _⟩ => show win2_0.index t (1 : Fin 2) * 32 + 1 * (y 1).val = (y 1).val; omega

/-- Every point's block of Wd1 is the whole of Wd1. -/
theorem read_w1 (t : Fin cfg2.N) (W : FVec Ideal S32x64 .f32) :
    ((cfg2.win 1).blk t).view.read (Elt Ideal) W = W := by
  obtain ⟨-, -, e0, e1, -⟩ := index_facts t
  funext y
  show W (((cfg2.win 1).blk t).view.emb y) = W y
  refine congrArg W (funext fun a => Fin.ext ?_)
  match a with
  | ⟨0, _⟩ => show win2_1.index t (0 : Fin 2) * 32 + 1 * (y 0).val = (y 0).val; omega
  | ⟨1, _⟩ => show win2_1.index t (1 : Fin 2) * 64 + 1 * (y 1).val = (y 1).val; omega

/-- Every point's block of bd1 is the whole of bd1. -/
theorem read_b1 (t : Fin cfg2.N) (B : FVec Ideal S64 .f32) :
    ((cfg2.win 2).blk t).view.read (Elt Ideal) B = B := by
  obtain ⟨-, -, -, -, e0, -⟩ := index_facts t
  funext y
  show B (((cfg2.win 2).blk t).view.emb y) = B y
  refine congrArg B (funext fun a => Fin.ext ?_)
  match a with
  | ⟨0, _⟩ => show win2_2.index t (0 : Fin 1) * 64 + 1 * (y 0).val = (y 0).val; omega

/-- Every point's block of Wd2 is the whole of Wd2. -/
theorem read_w2 (t : Fin cfg2.N) (W : FVec Ideal S64x128 .f32) :
    ((cfg2.win 3).blk t).view.read (Elt Ideal) W = W := by
  obtain ⟨-, -, -, -, -, e0, e1, -⟩ := index_facts t
  funext y
  show W (((cfg2.win 3).blk t).view.emb y) = W y
  refine congrArg W (funext fun a => Fin.ext ?_)
  match a with
  | ⟨0, _⟩ => show win2_3.index t (0 : Fin 2) * 64 + 1 * (y 0).val = (y 0).val; omega
  | ⟨1, _⟩ => show win2_3.index t (1 : Fin 2) * 128 + 1 * (y 1).val = (y 1).val; omega

/-- Every point's block of bd2 is the whole of bd2. -/
theorem read_b2 (t : Fin cfg2.N) (B : FVec Ideal S128 .f32) :
    ((cfg2.win 4).blk t).view.read (Elt Ideal) B = B := by
  obtain ⟨-, -, -, -, -, -, -, e0, -⟩ := index_facts t
  funext y
  show B (((cfg2.win 4).blk t).view.emb y) = B y
  refine congrArg B (funext fun a => Fin.ext ?_)
  match a with
  | ⟨0, _⟩ => show win2_4.index t (0 : Fin 1) * 128 + 1 * (y 0).val = (y 0).val; omega

/-- Point t's block of the result is rows 10000·t … of it. -/
theorem read_out (t : Fin cfg2.N) (G : FVec Ideal S100000x128 .f32) :
    ((cfg2.win 5).blk t).view.read (Elt Ideal) G = rowsOf (rows t) G := by
  obtain ⟨-, -, -, -, -, -, -, -, e0, e1⟩ := index_facts t
  funext y
  show G (((cfg2.win 5).blk t).view.emb y) = G (ix2 (rows t (y 0)) (y 1))
  refine congrArg G (funext fun a => Fin.ext ?_)
  match a with
  | ⟨0, _⟩ => show win2_5.index t (0 : Fin 2) * 10000 + 1 * (y 0).val = 10000 * t.val + (y 0).val; omega
  | ⟨1, _⟩ => show win2_5.index t (1 : Fin 2) * 128 + 1 * (y 1).val = (y 1).val; omega

theorem zero_bcast : (⟨0, ![]⟩ : Shape).BroadcastsInDim ⟨2, ![100000, 64]⟩ ![] := by decide
theorem row64 : (⟨1, ![64]⟩ : Shape).BroadcastsInDim ⟨2, ![1, 64]⟩ ![1] := by decide
theorem down64 : (⟨2, ![1, 64]⟩ : Shape).BroadcastsInDim ⟨2, ![100000, 64]⟩ ![0, 1] := by decide
theorem row128 : (⟨1, ![128]⟩ : Shape).BroadcastsInDim ⟨2, ![1, 128]⟩ ![1] := by decide
theorem down128 : (⟨2, ![1, 128]⟩ : Shape).BroadcastsInDim ⟨2, ![100000, 128]⟩ ![0, 1] := by decide

/-- The decoder's hidden layer before its maximum with zero, on the whole table: z·Wd1 + bd1. -/
def hidden (Z : FVec Ideal S100000x32 .f32) (Wd1 : FVec Ideal S32x64 .f32) (bd1 : FVec Ideal S64 .f32) :
    FVec Ideal S100000x64 .f32 :=
  addf (Host.dotGeneral (F := Ideal) (DotDims.plain 100000 32 64) none Z Wd1) (bias row64 down64 bd1)

/-- The decoder on the whole table: max (z·Wd1 + bd1, 0)·Wd2 + bd2. -/
def decoded (Z : FVec Ideal S100000x32 .f32) (Wd1 : FVec Ideal S32x64 .f32) (bd1 : FVec Ideal S64 .f32)
    (Wd2 : FVec Ideal S64x128 .f32) (bd2 : FVec Ideal S128 .f32) : FVec Ideal S100000x128 .f32 :=
  addf (Host.dotGeneral (F := Ideal) (DotDims.plain 100000 64 128) none (relu zero_bcast (hidden Z Wd1 bd1)) Wd2)
    (bias row128 down128 bd2)

/-- The block's hidden layer as the body spells it. -/
def hiddenBlock (z : FVec Ideal S10000x32 .f32) (Wd1 : FVec Ideal S32x64 .f32) (bd1 : FVec Ideal S64 .f32) :
    FVec Ideal S10000x64 .f32 :=
  addf (matmul dot_S10000x32_S32x64_S10000x64_1_0_0_1_n_n none
      (truncf .bf16 (shapeCast S10000x32 z shapeCasts_S10000x32_S10000x32) bitsLt_bf16_f32) (truncf .bf16 Wd1 bitsLt_bf16_f32)
      (constant S10000x64 .f32 0x00000000#32))
    (broadcastTo S10000x64 (shapeCast S1x64 bd1 shapeCasts_S64_S1x64) broadcasts_S1x64_S10000x64)

/-- The hidden layer on picked rows of z is the picked rows of the hidden layer of the whole table. -/
theorem hidden_rows (ρ : Fin 10000 → Fin 100000) (Z : FVec Ideal S100000x32 .f32) (Wd1 : FVec Ideal S32x64 .f32)
    (bd1 : FVec Ideal S64 .f32) : hiddenBlock (rowsOf ρ Z) Wd1 bd1 = rowsOf ρ (hidden Z Wd1 bd1) :=
  congrArg₂ addf
    (matmul_rows ρ none none _ _ Z Wd1 (fun p k => congrFun (shapeCast_self (rowsOf ρ Z) shapeCasts_S10000x32_S10000x32) (ix2 p k))
      (fun _ _ => rfl))
    (bias_rows ρ bd1 shapeCasts_S64_S1x64 broadcasts_S1x64_S10000x64 row64 down64)

/-- Its maximum with zero, likewise. -/
theorem active_rows (ρ : Fin 10000 → Fin 100000) (Z : FVec Ideal S100000x32 .f32) (Wd1 : FVec Ideal S32x64 .f32)
    (bd1 : FVec Ideal S64 .f32) :
    maximumf (hiddenBlock (rowsOf ρ Z) Wd1 bd1) (broadcast S10000x64 (Scalar.ofBits (F := Ideal) .f32 0x00000000#32))
      = rowsOf ρ (relu zero_bcast (hidden Z Wd1 bd1)) := by
  rw [hidden_rows]
  exact relu_rows ρ zero_bcast _

/-- The body on picked rows of z gives the picked rows of the decoder of the whole table. -/
theorem body_rows (ρ : Fin 10000 → Fin 100000) (Z : FVec Ideal S100000x32 .f32) (Wd1 : FVec Ideal S32x64 .f32)
    (bd1 : FVec Ideal S64 .f32) (Wd2 : FVec Ideal S64x128 .f32) (bd2 : FVec Ideal S128 .f32) :
    k2_pay1 (F := Ideal) (rowsOf ρ Z) Wd1 bd1 Wd2 bd2 = rowsOf ρ (decoded Z Wd1 bd1 Wd2 bd2) :=
  congrArg₂ addf
    (matmul_rows ρ none none _ _ (relu zero_bcast (hidden Z Wd1 bd1)) Wd2
      (fun p k => congrFun (active_rows ρ Z Wd1 bd1) (ix2 p k)) (fun _ _ => rfl))
    (bias_rows ρ bd2 shapeCasts_S128_S1x128 broadcasts_S1x128_S10000x128 row128 down128)

/-- What point t writes back is its block of the decoder of the arrays the region is entered with. -/
theorem flushed_eq (V : (c : Dev nD) → (b : Ref sig .tc) → Buf (Elt Ideal) ((c : Thread nD τ).loc b)) (c : Dev nD)
    (t : Fin cfg2.N) :
    (dat2 (F := Ideal) V c).flushed 5 t
      = ((cfg2.win 5).blk t).view.read (Elt Ideal)
          (decoded (V c main_v63) (V c main_arg6) (V c main_arg7) (V c main_arg8) (V c main_arg9)) := by
  show (cfg2.win 5).cut (grid2.coords t) ((dat2 V c).after 5 t) = _
  rw [after2_5]
  unfold out2_5
  rw [View.canon_unit_zero hz]
  simp only [View.ld_unit_zero (S := S10000x32) hz, View.ld_unit_zero (S := S32x64) hz, View.ld_unit_zero (S := S64) hz1,
    View.ld_unit_zero (S := S64x128) hz, View.ld_unit_zero (S := S128) hz1]
  rw [read_out]
  refine Eq.trans ?_ (body_rows (rows t) (V c main_v63) (V c main_arg6) (V c main_arg7) (V c main_arg8) (V c main_arg9))
  exact congr (congr (congr (congr (congrArg (k2_pay1 (F := Ideal)) (read_z t (V c main_v63))) (read_w1 t (V c main_arg6)))
    (read_b1 t (V c main_arg7))) (read_w2 t (V c main_arg8))) (read_b2 t (V c main_arg9))

/-- An index of the result is in point t's block iff its row is one of the block's. -/
theorem mem_blk (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v64).slice (win2_5.rect t)).set ↔ _
  rw [View.set_slice_whole, Rect.mem_set_unit]
  exact Iff.rfl

/-- The ten blocks tile the result. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 10000, by rw [show cfg2.N = 10 from N_2]; omega⟩
  obtain ⟨-, -, -, -, -, -, -, -, e0, e1⟩ := index_facts t
  have tv : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- After the region its result array holds the decoder of the arrays it was entered with. -/
theorem final (V : (c : Dev nD) → (b : Ref sig .tc) → Buf (Elt Ideal) ((c : Thread nD τ).loc b)) (c : Dev nD) :
    (dat2 (F := Ideal) V c).arrAt 5 cfg2.N
      = decoded (V c main_v63) (V c main_arg6) (V c main_arg7) (V c main_arg8) (V c main_arg9) :=
  (dat2 V c).arrAt_eq_of_cover 5 _ (fun t _ => flushed_eq V c t) cover

end Cert.KernelIdeal.Region2

end
-- ==== Proof.Spec.lean ====
/-
  A graph autoencoder on N = 100000 nodes and E = 1600000 edges, as whole-array functions of its inputs.

  Every node is also its own neighbour, so the edge list is read as E + N messages: message j < E goes from
  node `senders j` to node `receivers j`, message E + i from node i to itself. A node's degree is the number of
  messages it receives, the weight of a message is 1/√deg(sender) · 1/√deg(receiver) (zero where a degree is zero),
  and one graph convolution of a node table `h` with a bias row `b` is

      conv h b (r, ·) = Σ over the messages j received by r of  weight j · h (sender j, ·)   +  b.

  The encoder is two convolutions, `latent = conv (max (conv (x·W1) b1) 0 · W2) b2`; the decoder is two dense
  layers, `decode z = max (z·Wd1 + bd1) 0 · Wd2 + bd2`. The node numbers are 32-bit words; a negative word is read
  after adding N (`wrapped`), as array indexing does.

  The functions are spelt with the host's own array operations (gather, scatter-add, plain matrix product,
  broadcasts), so that a program's composed term is one of them by unfolding.
-/
import proofs.«138416_j61108794687905_1_alg».proof.Proof.Gen.ReferenceIdeal

noncomputable section

namespace Cert.GraphAuto

open Idealize.ShloMosaic Cert.ReferenceIdeal Cert.ReferenceIdeal.Gen

variable {F : FTy → Type} [FloatOps F]

/-- The senders of the E + N messages: the edge list's first row, then every node. -/
def senders (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The receivers of the E + N messages: the edge list's second row, then every node. -/
def receivers (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number read as array indexing reads it: a negative word has N added. -/
def wrapped (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- One number per message laid as a column. -/
def column {α : Type} (s : S1700000.Idx → α) : S1700000x1.Idx → α :=
  broadcastInDim S1700000x1 ![0] bcast_S1700000_S1700000x1_0 s

/-- A node's degree: the number of messages it receives. -/
def degree (e : IVec S2x1600000 32) : FVec F S100000 .f32 :=
  Host.scatterAdd scatter_S100000_S1700000x1_S1700000_n_0_0_1 (broadcastInDim S100000 ![] bcast_S_S100000 (constant S_ .f32 0x00000000#32)) (column (receivers e)) (broadcastInDim S1700000 ![] bcast_S_S1700000 (constant S_ .f32 0x3F800000#32))

/-- 1/√degree, and zero at a node of degree zero. -/
def invSqrtDegree (e : IVec S2x1600000 32) : FVec F S100000 .f32 :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- A message's weight: 1/√deg(sender) · 1/√deg(receiver). -/
def edgeWeight (e : IVec S2x1600000 32) : FVec F S1700000 .f32 :=
  mulf (Host.gather gather_S100000_S1700000x1_S1700000_n_0_n_n_0_1_1 (invSqrtDegree e) (column (wrapped (senders e)))) (Host.gather gather_S100000_S1700000x1_S1700000_n_0_n_n_0_1_1 (invSqrtDegree e) (column (wrapped (receivers e))))

/-- One graph convolution of a 64-column node table: the weighted rows of the senders summed at the receivers, plus
    the bias row. -/
def conv64 (e : IVec S2x1600000 32) (h : FVec F S100000x64 .f32) (b : FVec F S64 .f32) : FVec F S100000x64 .f32 :=
  addf (Host.scatterAdd scatter_S100000x64_S1700000x1_S1700000x64_1_0_0_1 (broadcastInDim S100000x64 ![] bcast_S_S100000x64 (constant S_ .f32 0x00000000#32)) (column (receivers e)) (mulf (Host.gather gather_S100000x64_S1700000x1_S1700000x64_1_0_n_n_0_1_164 h (column (wrapped (senders e)))) (broadcastInDim S1700000x64 ![0, 1] bcast_S1700000x1_S1700000x64_0_1 (column (edgeWeight e))))) (broadcastInDim S100000x64 ![0, 1] bcast_S1x64_S100000x64_0_1 (broadcastInDim S1x64 ![1] bcast_S64_S1x64_1 b))

/-- The same convolution of a 32-column node table. -/
def conv32 (e : IVec S2x1600000 32) (h : FVec F S100000x32 .f32) (b : FVec F S32 .f32) : FVec F S100000x32 .f32 :=
  addf (Host.scatterAdd scatter_S100000x32_S1700000x1_S1700000x32_1_0_0_1 (broadcastInDim S100000x32 ![] bcast_S_S100000x32 (constant S_ .f32 0x00000000#32)) (column (receivers e)) (mulf (Host.gather gather_S100000x32_S1700000x1_S1700000x32_1_0_n_n_0_1_132 h (column (wrapped (senders e)))) (broadcastInDim S1700000x32 ![0, 1] bcast_S1700000x1_S1700000x32_0_1 (column (edgeWeight e))))) (broadcastInDim S100000x32 ![0, 1] bcast_S1x32_S100000x32_0_1 (broadcastInDim S1x32 ![1] bcast_S32_S1x32_1 b))

/-- The maximum with zero of a 64-column node table. -/
def relu64 (y : FVec F S100000x64 .f32) : FVec F S100000x64 .f32 :=
  maximumf y (broadcastInDim S100000x64 ![] bcast_S_S100000x64 (constant S_ .f32 0x00000000#32))

/-- The first layer's node table x·W1. -/
def lift1 (x : FVec F S100000x128 .f32) (W1 : FVec F S128x64 .f32) : FVec F S100000x64 .f32 :=
  Host.dotGeneral dot_S100000x128_S128x64_S100000x64_1_0_0_1_n_n none x W1

/-- The second layer's node table max(y, 0)·W2. -/
def lift2 (y : FVec F S100000x64 .f32) (W2 : FVec F S64x32 .f32) : FVec F S100000x32 .f32 :=
  Host.dotGeneral dot_S100000x64_S64x32_S100000x32_1_0_0_1_n_n none (relu64 y) W2

/-- The encoder: two graph convolutions with a maximum with zero between them. -/
def latent (e : IVec S2x1600000 32) (x : FVec F S100000x128 .f32) (W1 : FVec F S128x64 .f32) (b1 : FVec F S64 .f32)
    (W2 : FVec F S64x32 .f32) (b2 : FVec F S32 .f32) : FVec F S100000x32 .f32 :=
  conv32 e (lift2 (conv64 e (lift1 x W1) b1) W2) b2

/-- The decoder: two dense layers with a maximum with zero between them. -/
def decode (z : FVec F S100000x32 .f32) (Wd1 : FVec F S32x64 .f32) (bd1 : FVec F S64 .f32) (Wd2 : FVec F S64x128 .f32)
    (bd2 : FVec F S128 .f32) : FVec F S100000x128 .f32 :=
  addf (Host.dotGeneral dot_S100000x64_S64x128_S100000x128_1_0_0_1_n_n none (relu64 (addf (Host.dotGeneral dot_S100000x32_S32x64_S100000x64_1_0_0_1_n_n none z Wd1) (broadcastInDim S100000x64 ![0, 1] bcast_S1x64_S100000x64_0_1 (broadcastInDim S1x64 ![1] bcast_S64_S1x64_1 bd1)))) Wd2) (broadcastInDim S100000x128 ![0, 1] bcast_S1x128_S100000x128_0_1 (broadcastInDim S1x128 ![1] bcast_S128_S1x128_1 bd2))

end Cert.GraphAuto

end
-- ==== Proof.KernelValue.lean ====
/-
  The idealized kernel's two results as functions of its arguments.

  The program's last boundary is a fold: three stretches of host operations, a pipelined region, a stretch, a region, a
  stretch, a region. Reading it from the launch memory forwards, one boundary at a time:

  * before the first region the host has the senders, the receivers and the message weights — functions of the edge
    list alone — and the first region leaves x·W1;
  * the next stretch is one graph convolution of that table, and the second region leaves max(·, 0)·W2 of it;
  * the last stretch is the second convolution, the latent table, which the program returns, and the third region
    leaves its decoding, the other result.

  A buffer that a stretch does not write and a region does not own keeps its contents across it.
-/
import proofs.«138416_j61108794687905_1_alg».proof.Proof.Gen.KernelIdeal.Frame
import proofs.«138416_j61108794687905_1_alg».proof.Proof.Region0
import proofs.«138416_j61108794687905_1_alg».proof.Proof.Region1
import proofs.«138416_j61108794687905_1_alg».proof.Proof.Region2
import proofs.«138416_j61108794687905_1_alg».proof.Proof.Spec
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.GraphAuto

/-- One stretch of host operations read at a buffer: each operation's result at its own buffer is its function of its
    operands' contents, and at any other buffer what was there. -/
macro "host_results" : tactic =>
  `(tactic| (simp (disch := decide) only [hostOps0, hostOps0_1, hostOps0_2, hostOps1, hostOps2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

variable (m : (ℓ : Loc nD τ sig) → Buf (Elt Ideal) ℓ) (ρ : Dev nD → PrngReg) (c : Dev nD)

/-! ## Before the first region -/

/-- The contents after the first stretch of host operations (senders, receivers, degrees). -/
def B1 (c : Dev nD) : Valuation τ sig (Elt Ideal) := W1 m ρ c

/-- The contents after the second stretch (the inverse square roots of the degrees). -/
def B2 (c : Dev nD) : Valuation τ sig (Elt Ideal) := after hostOps0_1 (B1 m ρ c)

theorem at1_main_v5 : B1 m ρ c (Proc.devRef .tc main_v5) = senders (m ((c : Thread nD τ).loc main_arg1)) := by
  show after hostOps0 (W0 m ρ c) (Proc.devRef .tc main_v5) = _
  host_results
  rfl
theorem at1_main_v6 : B1 m ρ c (Proc.devRef .tc main_v6) = receivers (m ((c : Thread nD τ).loc main_arg1)) := by
  show after hostOps0 (W0 m ρ c) (Proc.devRef .tc main_v6) = _
  host_results
  rfl
theorem at1_main_v12 : B1 m ρ c (Proc.devRef .tc main_v12) = cmpf (F := Ideal) .ogt (degree (F := Ideal) (m ((c : Thread nD τ).loc main_arg1))) (broadcastInDim Cert.ReferenceIdeal.S100000 ![] Cert.ReferenceIdeal.Gen.bcast_S_S100000 (constant (F := Ideal) Cert.ReferenceIdeal.S_ .f32 0x00000000#32)) := by
  show after hostOps0 (W0 m ρ c) (Proc.devRef .tc main_v12) = _
  host_results
  rfl
theorem at1_main_v13 : B1 m ρ c (Proc.devRef .tc main_v13) = Host.rsqrt (degree (F := Ideal) (m ((c : Thread nD τ).loc main_arg1))) := by
  show after hostOps0 (W0 m ρ c) (Proc.devRef .tc main_v13) = _
  host_results
  rfl
theorem at1_main_cst_2 : B1 m ρ c (Proc.devRef .tc main_cst_2) = constant (F := Ideal) Cert.ReferenceIdeal.S_ .f32 0x00000000#32 := by
  show after hostOps0 (W0 m ρ c) (Proc.devRef .tc main_cst_2) = _
  host_results
/-- The outlined choice between two arrays, read through its buffers' types, is the plain choice. -/
theorem where_read (A : IVec S100000 1) (B : FVec Ideal S100000 .f32) (C : FVec Ideal S_ .f32) :
    (TRef.of (T := ⟨S100000, .f32⟩) main_v14).toBuf (Val := Elt Ideal)
      (select ((TRef.of (T := ⟨S100000, .i1⟩) main_v12).ofBuf (Val := Elt Ideal) A)
        ((TRef.of (T := ⟨S100000, .f32⟩) main_v13).ofBuf (Val := Elt Ideal) B)
        ((TRef.of (T := ⟨S100000, .f32⟩) main_call0_v1).ofBuf (Val := Elt Ideal)
          ((TRef.of (T := ⟨S100000, .f32⟩) main_call0_v1).toBuf (Val := Elt Ideal)
            (broadcastInDim S100000 ![] bcast_S_S100000
              ((TRef.of (T := ⟨S_, .f32⟩) main_call0_v0).ofBuf (Val := Elt Ideal)
                ((TRef.of (T := ⟨S_, .f32⟩) main_call0_v0).toBuf (Val := Elt Ideal)
                  (id ((TRef.of (T := ⟨S_, .f32⟩) main_cst_2).ofBuf (Val := Elt Ideal) C))))))))
      = (select A B (broadcastInDim Cert.ReferenceIdeal.S100000 ![] Cert.ReferenceIdeal.Gen.bcast_S_S100000 (id C)) :
          FVec Ideal Cert.ReferenceIdeal.S100000 .f32) := rfl

theorem at2_main_v14 : B2 m ρ c (Proc.devRef .tc main_v14) = invSqrtDegree (F := Ideal) (m ((c : Thread nD τ).loc main_arg1)) := by
  show after hostOps0_1 (B1 m ρ c) (Proc.devRef .tc main_v14) = _
  host_results
  rw [at1_main_v12 m ρ c, at1_main_v13 m ρ c, at1_main_cst_2 m ρ c]
  exact where_read _ _ _
theorem at2_main_v5 : B2 m ρ c (Proc.devRef .tc main_v5) = senders (m ((c : Thread nD τ).loc main_arg1)) := by
  show after hostOps0_1 (B1 m ρ c) (Proc.devRef .tc main_v5) = _
  host_results
  exact at1_main_v5 m ρ c
theorem at2_main_v6 : B2 m ρ c (Proc.devRef .tc main_v6) = receivers (m ((c : Thread nD τ).loc main_arg1)) := by
  show after hostOps0_1 (B1 m ρ c) (Proc.devRef .tc main_v6) = _
  host_results
  exact at1_main_v6 m ρ c
theorem at3_main_v5 : W3 (F := Ideal) m ρ c (Proc.devRef .tc main_v5) = senders (m ((c : Thread nD τ).loc main_arg1)) := by
  show after hostOps0_2 (B2 m ρ c) (Proc.devRef .tc main_v5) = _
  host_results
  exact at2_main_v5 m ρ c
theorem at3_main_v6 : W3 (F := Ideal) m ρ c (Proc.devRef .tc main_v6) = receivers (m ((c : Thread nD τ).loc main_arg1)) := by
  show after hostOps0_2 (B2 m ρ c) (Proc.devRef .tc main_v6) = _
  host_results
  exact at2_main_v6 m ρ c
/-- The message weights. -/
theorem at3_main_v29 : W3 (F := Ideal) m ρ c (Proc.devRef .tc main_v29) = edgeWeight (F := Ideal) (m ((c : Thread nD τ).loc main_arg1)) := by
  show after hostOps0_2 (B2 m ρ c) (Proc.devRef .tc main_v29) = _
  host_results
  rw [at2_main_v14 m ρ c, at2_main_v5 m ρ c, at2_main_v6 m ρ c]
  rfl
theorem at3_main_arg0 : W3 (F := Ideal) m ρ c (Proc.devRef .tc main_arg0) = m ((c : Thread nD τ).loc main_arg0) := by
  show after hostOps0_2 (after hostOps0_1 (after hostOps0 (W0 m ρ c))) (Proc.devRef .tc main_arg0) = _
  host_results
theorem at3_main_arg2 : W3 (F := Ideal) m ρ c (Proc.devRef .tc main_arg2) = m ((c : Thread nD τ).loc main_arg2) := by
  show after hostOps0_2 (after hostOps0_1 (after hostOps0 (W0 m ρ c))) (Proc.devRef .tc main_arg2) = _
  host_results
theorem at3_main_arg3 : W3 (F := Ideal) m ρ c (Proc.devRef .tc main_arg3) = m ((c : Thread nD τ).loc main_arg3) := by
  show after hostOps0_2 (after hostOps0_1 (after hostOps0 (W0 m ρ c))) (Proc.devRef .tc main_arg3) = _
  host_results
theorem at3_main_arg4 : W3 (F := Ideal) m ρ c (Proc.devRef .tc main_arg4) = m ((c : Thread nD τ).loc main_arg4) := by
  show after hostOps0_2 (after hostOps0_1 (after hostOps0 (W0 m ρ c))) (Proc.devRef .tc main_arg4) = _
  host_results
theorem at3_main_arg5 : W3 (F := Ideal) m ρ c (Proc.devRef .tc main_arg5) = m ((c : Thread nD τ).loc main_arg5) := by
  show after hostOps0_2 (after hostOps0_1 (after hostOps0 (W0 m ρ c))) (Proc.devRef .tc main_arg5) = _
  host_results
theorem at3_main_arg6 : W3 (F := Ideal) m ρ c (Proc.devRef .tc main_arg6) = m ((c : Thread nD τ).loc main_arg6) := by
  show after hostOps0_2 (after hostOps0_1 (after hostOps0 (W0 m ρ c))) (Proc.devRef .tc main_arg6) = _
  host_results
theorem at3_main_arg7 : W3 (F := Ideal) m ρ c (Proc.devRef .tc main_arg7) = m ((c : Thread nD τ).loc main_arg7) := by
  show after hostOps0_2 (after hostOps0_1 (after hostOps0 (W0 m ρ c))) (Proc.devRef .tc main_arg7) = _
  host_results
theorem at3_main_arg8 : W3 (F := Ideal) m ρ c (Proc.devRef .tc main_arg8) = m ((c : Thread nD τ).loc main_arg8) := by
  show after hostOps0_2 (after hostOps0_1 (after hostOps0 (W0 m ρ c))) (Proc.devRef .tc main_arg8) = _
  host_results
theorem at3_main_arg9 : W3 (F := Ideal) m ρ c (Proc.devRef .tc main_arg9) = m ((c : Thread nD τ).loc main_arg9) := by
  show after hostOps0_2 (after hostOps0_1 (after hostOps0 (W0 m ρ c))) (Proc.devRef .tc main_arg9) = _
  host_results

/-! ## After the first region -/

/-- The first region leaves x·W1. -/
theorem at4_main_v30 : W4 (F := Ideal) m ρ c (Proc.devRef .tc main_v30) = lift1 (F := Ideal) (m ((c : Thread nD τ).loc main_arg0)) (m ((c : Thread nD τ).loc main_arg2)) :=
  (W4_arr m ρ c 2).trans ((Region0.final (V3 m ρ) c).trans
    (congrArg₂ Region0.product (at3_main_arg0 m ρ c) (at3_main_arg2 m ρ c)))
theorem at4_main_v5 : W4 (F := Ideal) m ρ c (Proc.devRef .tc main_v5) = senders (m ((c : Thread nD τ).loc main_arg1)) :=
  (W4_of_ne m ρ c main_v5 (by decide)).trans (at3_main_v5 m ρ c)
theorem at4_main_v6 : W4 (F := Ideal) m ρ c (Proc.devRef .tc main_v6) = receivers (m ((c : Thread nD τ).loc main_arg1)) :=
  (W4_of_ne m ρ c main_v6 (by decide)).trans (at3_main_v6 m ρ c)
theorem at4_main_v29 : W4 (F := Ideal) m ρ c (Proc.devRef .tc main_v29) = edgeWeight (F := Ideal) (m ((c : Thread nD τ).loc main_arg1)) :=
  (W4_of_ne m ρ c main_v29 (by decide)).trans (at3_main_v29 m ρ c)
theorem at4_main_arg3 : W4 (F := Ideal) m ρ c (Proc.devRef .tc main_arg3) = m ((c : Thread nD τ).loc main_arg3) :=
  (W4_of_ne m ρ c main_arg3 (by decide)).trans (at3_main_arg3 m ρ c)
theorem at4_main_arg4 : W4 (F := Ideal) m ρ c (Proc.devRef .tc main_arg4) = m ((c : Thread nD τ).loc main_arg4) :=
  (W4_of_ne m ρ c main_arg4 (by decide)).trans (at3_main_arg4 m ρ c)
theorem at4_main_arg5 : W4 (F := Ideal) m ρ c (Proc.devRef .tc main_arg5) = m ((c : Thread nD τ).loc main_arg5) :=
  (W4_of_ne m ρ c main_arg5 (by decide)).trans (at3_main_arg5 m ρ c)
theorem at4_main_arg6 : W4 (F := Ideal) m ρ c (Proc.devRef .tc main_arg6) = m ((c : Thread nD τ).loc main_arg6) :=
  (W4_of_ne m ρ c main_arg6 (by decide)).trans (at3_main_arg6 m ρ c)
theorem at4_main_arg7 : W4 (F := Ideal) m ρ c (Proc.devRef .tc main_arg7) = m ((c : Thread nD τ).loc main_arg7) :=
  (W4_of_ne m ρ c main_arg7 (by decide)).trans (at3_main_arg7 m ρ c)
theorem at4_main_arg8 : W4 (F := Ideal) m ρ c (Proc.devRef .tc main_arg8) = m ((c : Thread nD τ).loc main_arg8) :=
  (W4_of_ne m ρ c main_arg8 (by decide)).trans (at3_main_arg8 m ρ c)
theorem at4_main_arg9 : W4 (F := Ideal) m ρ c (Proc.devRef .tc main_arg9) = m ((c : Thread nD τ).loc main_arg9) :=
  (W4_of_ne m ρ c main_arg9 (by decide)).trans (at3_main_arg9 m ρ c)

/-! ## Before the second region -/

/-- The stretch between the first two regions is one graph convolution of x·W1. -/
theorem at5_main_v46 : W5 (F := Ideal) m ρ c (Proc.devRef .tc main_v46) = conv64 (F := Ideal) (m ((c : Thread nD τ).loc main_arg1)) (lift1 (F := Ideal) (m ((c : Thread nD τ).loc main_arg0)) (m ((c : Thread nD τ).loc main_arg2))) (m ((c : Thread nD τ).loc main_arg3)) := by
  show after hostOps1 (W4 m ρ c) (Proc.devRef .tc main_v46) = _
  host_results
  rw [at4_main_v5 m ρ c, at4_main_v6 m ρ c, at4_main_v29 m ρ c, at4_main_v30 m ρ c, at4_main_arg3 m ρ c]
  rfl
theorem at5_main_v5 : W5 (F := Ideal) m ρ c (Proc.devRef .tc main_v5) = senders (m ((c : Thread nD τ).loc main_arg1)) := by
  show after hostOps1 (W4 m ρ c) (Proc.devRef .tc main_v5) = _
  host_results
  exact at4_main_v5 m ρ c
theorem at5_main_v6 : W5 (F := Ideal) m ρ c (Proc.devRef .tc main_v6) = receivers (m ((c : Thread nD τ).loc main_arg1)) := by
  show after hostOps1 (W4 m ρ c) (Proc.devRef .tc main_v6) = _
  host_results
  exact at4_main_v6 m ρ c
theorem at5_main_v29 : W5 (F := Ideal) m ρ c (Proc.devRef .tc main_v29) = edgeWeight (F := Ideal) (m ((c : Thread nD τ).loc main_arg1)) := by
  show after hostOps1 (W4 m ρ c) (Proc.devRef .tc main_v29) = _
  host_results
  exact at4_main_v29 m ρ c
theorem at5_main_arg4 : W5 (F := Ideal) m ρ c (Proc.devRef .tc main_arg4) = m ((c : Thread nD τ).loc main_arg4) := by
  show after hostOps1 (W4 m ρ c) (Proc.devRef .tc main_arg4) = _
  host_results
  exact at4_main_arg4 m ρ c
theorem at5_main_arg5 : W5 (F := Ideal) m ρ c (Proc.devRef .tc main_arg5) = m ((c : Thread nD τ).loc main_arg5) := by
  show after hostOps1 (W4 m ρ c) (Proc.devRef .tc main_arg5) = _
  host_results
  exact at4_main_arg5 m ρ c
theorem at5_main_arg6 : W5 (F := Ideal) m ρ c (Proc.devRef .tc main_arg6) = m ((c : Thread nD τ).loc main_arg6) := by
  show after hostOps1 (W4 m ρ c) (Proc.devRef .tc main_arg6) = _
  host_results
  exact at4_main_arg6 m ρ c
theorem at5_main_arg7 : W5 (F := Ideal) m ρ c (Proc.devRef .tc main_arg7) = m ((c : Thread nD τ).loc main_arg7) := by
  show after hostOps1 (W4 m ρ c) (Proc.devRef .tc main_arg7) = _
  host_results
  exact at4_main_arg7 m ρ c
theorem at5_main_arg8 : W5 (F := Ideal) m ρ c (Proc.devRef .tc main_arg8) = m ((c : Thread nD τ).loc main_arg8) := by
  show after hostOps1 (W4 m ρ c) (Proc.devRef .tc main_arg8) = _
  host_results
  exact at4_main_arg8 m ρ c
theorem at5_main_arg9 : W5 (F := Ideal) m ρ c (Proc.devRef .tc main_arg9) = m ((c : Thread nD τ).loc main_arg9) := by
  show after hostOps1 (W4 m ρ c) (Proc.devRef .tc main_arg9) = _
  host_results
  exact at4_main_arg9 m ρ c

/-! ## After the second region -/

/-- The second region leaves max(·, 0)·W2 of the first convolution. -/
theorem at6_main_v47 : W6 (F := Ideal) m ρ c (Proc.devRef .tc main_v47) = lift2 (F := Ideal) (conv64 (F := Ideal) (m ((c : Thread nD τ).loc main_arg1)) (lift1 (F := Ideal) (m ((c : Thread nD τ).loc main_arg0)) (m ((c : Thread nD τ).loc main_arg2))) (m ((c : Thread nD τ).loc main_arg3))) (m ((c : Thread nD τ).loc main_arg4)) :=
  (W6_arr m ρ c 2).trans ((Region1.final (V5 m ρ) c).trans
    (congrArg₂ Region1.product (at5_main_v46 m ρ c) (at5_main_arg4 m ρ c)))
theorem at6_main_v5 : W6 (F := Ideal) m ρ c (Proc.devRef .tc main_v5) = senders (m ((c : Thread nD τ).loc main_arg1)) :=
  (W6_of_ne m ρ c main_v5 (by decide)).trans (at5_main_v5 m ρ c)
theorem at6_main_v6 : W6 (F := Ideal) m ρ c (Proc.devRef .tc main_v6) = receivers (m ((c : Thread nD τ).loc main_arg1)) :=
  (W6_of_ne m ρ c main_v6 (by decide)).trans (at5_main_v6 m ρ c)
theorem at6_main_v29 : W6 (F := Ideal) m ρ c (Proc.devRef .tc main_v29) = edgeWeight (F := Ideal) (m ((c : Thread nD τ).loc main_arg1)) :=
  (W6_of_ne m ρ c main_v29 (by decide)).trans (at5_main_v29 m ρ c)
theorem at6_main_arg5 : W6 (F := Ideal) m ρ c (Proc.devRef .tc main_arg5) = m ((c : Thread nD τ).loc main_arg5) :=
  (W6_of_ne m ρ c main_arg5 (by decide)).trans (at5_main_arg5 m ρ c)
theorem at6_main_arg6 : W6 (F := Ideal) m ρ c (Proc.devRef .tc main_arg6) = m ((c : Thread nD τ).loc main_arg6) :=
  (W6_of_ne m ρ c main_arg6 (by decide)).trans (at5_main_arg6 m ρ c)
theorem at6_main_arg7 : W6 (F := Ideal) m ρ c (Proc.devRef .tc main_arg7) = m ((c : Thread nD τ).loc main_arg7) :=
  (W6_of_ne m ρ c main_arg7 (by decide)).trans (at5_main_arg7 m ρ c)
theorem at6_main_arg8 : W6 (F := Ideal) m ρ c (Proc.devRef .tc main_arg8) = m ((c : Thread nD τ).loc main_arg8) :=
  (W6_of_ne m ρ c main_arg8 (by decide)).trans (at5_main_arg8 m ρ c)
theorem at6_main_arg9 : W6 (F := Ideal) m ρ c (Proc.devRef .tc main_arg9) = m ((c : Thread nD τ).loc main_arg9) :=
  (W6_of_ne m ρ c main_arg9 (by decide)).trans (at5_main_arg9 m ρ c)

/-! ## Before the third region -/

/-- The stretch between the last two regions is the second graph convolution: the latent table. -/
theorem at7_main_v63 : W7 (F := Ideal) m ρ c (Proc.devRef .tc main_v63) = latent (F := Ideal) (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  show after hostOps2 (W6 m ρ c) (Proc.devRef .tc main_v63) = _
  host_results
  rw [at6_main_v5 m ρ c, at6_main_v6 m ρ c, at6_main_v29 m ρ c, at6_main_v47 m ρ c, at6_main_arg5 m ρ c]
  rfl
theorem at7_main_arg6 : W7 (F := Ideal) m ρ c (Proc.devRef .tc main_arg6) = m ((c : Thread nD τ).loc main_arg6) := by
  show after hostOps2 (W6 m ρ c) (Proc.devRef .tc main_arg6) = _
  host_results
  exact at6_main_arg6 m ρ c
theorem at7_main_arg7 : W7 (F := Ideal) m ρ c (Proc.devRef .tc main_arg7) = m ((c : Thread nD τ).loc main_arg7) := by
  show after hostOps2 (W6 m ρ c) (Proc.devRef .tc main_arg7) = _
  host_results
  exact at6_main_arg7 m ρ c
theorem at7_main_arg8 : W7 (F := Ideal) m ρ c (Proc.devRef .tc main_arg8) = m ((c : Thread nD τ).loc main_arg8) := by
  show after hostOps2 (W6 m ρ c) (Proc.devRef .tc main_arg8) = _
  host_results
  exact at6_main_arg8 m ρ c
theorem at7_main_arg9 : W7 (F := Ideal) m ρ c (Proc.devRef .tc main_arg9) = m ((c : Thread nD τ).loc main_arg9) := by
  show after hostOps2 (W6 m ρ c) (Proc.devRef .tc main_arg9) = _
  host_results
  exact at6_main_arg9 m ρ c

/-! ## The last boundary -/

/-- The third region reads the latent table and leaves it as it was. -/
theorem result_latent : W8 (F := Ideal) m ρ c (Proc.devRef .tc main_v63) = latent (F := Ideal) (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) :=
  (W8_arr m ρ c 0).trans (((dat2 (V7 m ρ) c).arrAt_in 0 rfl _).trans ((A_eq2 (V7 m ρ) c 0).trans (at7_main_v63 m ρ c)))

/-- The third region leaves the decoding of the latent table. -/
theorem result_decoded : W8 (F := Ideal) m ρ c (Proc.devRef .tc main_v64)
    = decode (F := Ideal) (latent (F := Ideal) (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) :=
  (W8_arr m ρ c 5).trans ((Region2.final (V7 m ρ) c).trans
    (congr (congr (congr (congr (congrArg Region2.decoded (at7_main_v63 m ρ c)) (at7_main_arg6 m ρ c)) (at7_main_arg7 m ρ c))
      (at7_main_arg8 m ρ c)) (at7_main_arg9 m ρ c)))

end Cert.KernelIdeal.HostValue

end
-- ==== Proof.RefValue.lean ====
/-
  The idealized reference's two results as functions of its arguments.

  The reference is host operations only, and its run ends with each result at the operations' composed term of the
  arguments. That term is, by unfolding, the encoder (two graph convolutions with a maximum with zero between them)
  and the decoder of it: the reference recomputes the senders, the receivers and the message weights for its second
  convolution, as the same functions of the edge list.
-/
import proofs.«138416_j61108794687905_1_alg».proof.Proof.RefRun
import proofs.«138416_j61108794687905_1_alg».proof.Proof.Spec
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe Idealize.SL.Sem
open Cert.GraphAuto

variable (m : (ℓ : Loc nD τ sig) → Buf (Elt Ideal) ℓ) (c : Dev nD)

/-- The reference's second result is the latent table. -/
theorem result_latent : Cert.ReferenceIdeal.RunP.res_main_v90 (F := Ideal) m c = latent (F := Ideal) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := rfl

/-- The reference's first result is the decoding of the latent table. -/
theorem result_decoded : Cert.ReferenceIdeal.RunP.res_main_v99 (F := Ideal) m c
    = decode (F := Ideal) (latent (F := Ideal) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9)) := rfl

end Cert.ReferenceIdeal.RefValue

end
-- ==== Proof.lean ====
/-
  A graph autoencoder: the kernel and its reference compute the same two tables on the extended reals.

  Both programs take a node table x, an edge list, and the weights and biases of two graph convolutions and two dense
  layers, and return the latent table z = conv (max (conv (x·W1) b1, 0)·W2) b2 and its decoding
  max (z·Wd1 + bd1, 0)·Wd2 + bd2 (the functions `latent` and `decode` of Proof/Spec.lean).

  The kernel computes the three families of dense products — x·W1, max(·, 0)·W2 and the whole decoder — in three pipelined
  regions, ten blocks of 10000 rows each, on the matrix unit with operands narrowed to bf16 and an f32 accumulator started
  at zero; everything between the regions (the degrees, the message weights, the gathers and the scatter-adds of the two
  convolutions) is the reference's own host operations. On the extended reals a change of float format is the identity
  and a product into a zero accumulator is the plain sum of products, and each of the three layers acts on every row by
  itself, so a block of rows of a region's result is the same rows of the host's layer on the whole table
  (Proof/Region0.lean, Region1.lean, Region2.lean); the blocks tile the tables. No law of arithmetic beyond that is used,
  and the inputs' finiteness is not needed.

  The frames of the two kernel programs are the generated ones; the reference's frame is its run with the results
  dropped; the idealization rewrote nothing, so there is nothing to preserve.
-/
import proofs.«138416_j61108794687905_1_alg».proof.Defs
import proofs.«138416_j61108794687905_1_alg».proof.Proof.Gen.Kernel
import proofs.«138416_j61108794687905_1_alg».proof.Proof.Gen.Kernel.Skeleton
import proofs.«138416_j61108794687905_1_alg».proof.Proof.Gen.Kernel.Launch
import proofs.«138416_j61108794687905_1_alg».proof.Proof.Gen.Kernel.Points
import proofs.«138416_j61108794687905_1_alg».proof.Proof.Gen.Kernel.Frame
import proofs.«138416_j61108794687905_1_alg».proof.Proof.Gen.KernelIdeal
import proofs.«138416_j61108794687905_1_alg».proof.Proof.Gen.KernelIdeal.Skeleton
import proofs.«138416_j61108794687905_1_alg».proof.Proof.Gen.KernelIdeal.Launch
import proofs.«138416_j61108794687905_1_alg».proof.Proof.Gen.KernelIdeal.Points
import proofs.«138416_j61108794687905_1_alg».proof.Proof.Gen.KernelIdeal.Frame
import proofs.«138416_j61108794687905_1_alg».proof.Proof.Gen.ReferenceIdeal
import proofs.«138416_j61108794687905_1_alg».proof.Proof.Gen.Pre_finite_inputs
import proofs.«138416_j61108794687905_1_alg».proof.Proof.KernelRun
import proofs.«138416_j61108794687905_1_alg».proof.Proof.KernelValue
import proofs.«138416_j61108794687905_1_alg».proof.Proof.RefRun
import proofs.«138416_j61108794687905_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.GraphAuto

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RunP.run (F := Ideal) m ρ)

/-- The idealization rewrote no operation. -/
theorem preserves : Cert.preserves_Kernel_KernelIdeal := trivial

/-- From memories agreeing on the arguments both programs end with the decoding and the latent table of the kernel's
    arguments: the kernel by reading its last boundary, the reference by unfolding its composed term. -/
theorem algebraic : Cert.algebraic_KernelIdeal_ReferenceIdeal := by
  intro m ρ m' ρ' _ hagree
  refine ⟨fun c => decode (F := Ideal) (latent (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => latent (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunValue.run_all (F := Ideal) m ρ)
    exact ⟨(h c Cert.KernelIdeal.main_v64 (by decide)).trans (Cert.KernelIdeal.HostValue.result_decoded m ρ c),
      (h c Cert.KernelIdeal.main_v63 (by decide)).trans (Cert.KernelIdeal.HostValue.result_latent m ρ c),
      (h c Cert.KernelIdeal.main_arg0 (by decide)).trans (Cert.KernelIdeal.Gen.W8_main_arg0 m ρ c),
      (h c Cert.KernelIdeal.main_arg1 (by decide)).trans (Cert.KernelIdeal.Gen.W8_main_arg1 m ρ c),
      (h c Cert.KernelIdeal.main_arg2 (by decide)).trans (Cert.KernelIdeal.Gen.W8_main_arg2 m ρ c),
      (h c Cert.KernelIdeal.main_arg3 (by decide)).trans (Cert.KernelIdeal.Gen.W8_main_arg3 m ρ c),
      (h c Cert.KernelIdeal.main_arg4 (by decide)).trans (Cert.KernelIdeal.Gen.W8_main_arg4 m ρ c),
      (h c Cert.KernelIdeal.main_arg5 (by decide)).trans (Cert.KernelIdeal.Gen.W8_main_arg5 m ρ c),
      (h c Cert.KernelIdeal.main_arg6 (by decide)).trans (Cert.KernelIdeal.Gen.W8_main_arg6 m ρ c),
      (h c Cert.KernelIdeal.main_arg7 (by decide)).trans (Cert.KernelIdeal.Gen.W8_main_arg7 m ρ c),
      (h c Cert.KernelIdeal.main_arg8 (by decide)).trans (Cert.KernelIdeal.Gen.W8_main_arg8 m ρ c),
      (h c Cert.KernelIdeal.main_arg9 (by decide)).trans (Cert.KernelIdeal.Gen.W8_main_arg9 m ρ c)⟩
  · refine (θ_run Cert.ReferenceIdeal.defs _ _).mono (fun r h c => ⟨(h c).1.trans ?_, (h c).2.1.trans ?_, (h c).2.2⟩)
      (Cert.ReferenceIdeal.RunP.run (F := Ideal) m' ρ')
    · rw [Cert.ReferenceIdeal.RefValue.result_decoded, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2]
    · rw [Cert.ReferenceIdeal.RefValue.result_latent, (hagree c).1, (hagree c).2.1, (hagree c).2.2.1, (hagree c).2.2.2.1,
        (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
